-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x32 .f32) (main_arg6 : FVec F S64x32 .f32) (main_arg7 : FVec F S32 .f32) (main_arg8 : FVec F S32x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x64 .f32) (main_arg3 : FVec F S128x64 .f32) (main_arg4 : FVec F S64 .f32) (main_arg5 : FVec F S64x32 .f32) (main_arg6 : FVec F S64x32 .f32) (main_arg7 : FVec F S32 .f32) (main_arg8 : FVec F S32x2 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1600000x64 : Shape := ⟨2, ![1600000, 64]⟩
abbrev S1x32 : Shape := ⟨2, ![1, 32]⟩
abbrev S1x2 : Shape := ⟨2, ![1, 2]⟩
abbrev S50000x2 : Shape := ⟨2, ![50000, 2]⟩
abbrev S5000x2 : Shape := ⟨2, ![5000, 2]⟩
abbrev S5000x32 : Shape := ⟨2, ![5000, 32]⟩

abbrev nBuf : Space → Nat
  | .hbm => 59
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S50000, .f32⟩
  | .hbm, ⟨18, _⟩ => ⟨S1600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S50000x128, .f32⟩
  | .hbm, ⟨35, _⟩ => ⟨S1600000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x64, .f32⟩
  | .hbm, ⟨40, _⟩ => ⟨S50000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S50000x64, .f32⟩
  | .hbm, ⟨52, _⟩ => ⟨S1600000x1, .i32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S1x32, .f32⟩
  | .hbm, ⟨57, _⟩ => ⟨S1x2, .f32⟩
  | .hbm, ⟨58, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S32x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S32_S1x32 : S32.ShapeCasts S1x32
  shapeCasts_S2_S1x2 : S2.ShapeCasts S1x2
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x32_S5000x32_1_0_0_1_n_n_wf : DotDims.WF S5000x64 S64x32 S5000x32 [1] [0] [0] [1] [] []
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x2.size a ≤ S32x2.size a
  hwx1_5 : ∀ i : grid1.Coords, EltTy.bits .f32 = 32 ∨ (Rect.block (s := S32x2) S32x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S50000x2.size a
  hwx1_7 : ∀ i : grid1.Coords, EltTy.bits .f32 = 32 ∨ (Rect.block (s := S50000x2) S5000x2.size (cc1_transform_7 i) (hinb1_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S1600000x64 : Shape := ⟨2, ![1600000, 64]⟩
abbrev S50000x32 : Shape := ⟨2, ![50000, 32]⟩
abbrev S1x32 : Shape := ⟨2, ![1, 32]⟩
abbrev S50000x2 : Shape := ⟨2, ![50000, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S50000x128, .f32⟩
  | .hbm, ⟨25, _⟩ => ⟨S1600000x1, .i32⟩
  | .hbm, ⟨26, _⟩ => ⟨S50000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S50000, .f32⟩
  | .hbm, ⟨31, _⟩ => ⟨S1600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S50000x64, .f32⟩
  | .hbm, ⟨63, _⟩ => ⟨S1600000x1, .i32⟩
  | .hbm, ⟨64, _⟩ => ⟨S50000x64, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S50000, .f32⟩
  | .hbm, ⟨69, _⟩ => ⟨S1600000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x64, .f32⟩
  | .hbm, ⟨76, _⟩ => ⟨S50000x64, .f32⟩
  | .hbm, ⟨77, _⟩ => ⟨S50000x32, .f32⟩
  | .hbm, ⟨78, _⟩ => ⟨S50000x32, .f32⟩
  | .hbm, ⟨79, _⟩ => ⟨S50000x32, .f32⟩
  | .hbm, ⟨80, _⟩ => ⟨S1x32, .f32⟩
  | .hbm, ⟨81, _⟩ => ⟨S50000x32, .f32⟩
  | .hbm, ⟨82, _⟩ => ⟨S50000x32, .f32⟩
  | .hbm, ⟨83, _⟩ => ⟨S_, .f32⟩
  | .hbm, ⟨84, _⟩ => ⟨S50000x32, .f32⟩
  | .hbm, ⟨85, _⟩ => ⟨S50000x32, .f32⟩
  | .hbm, ⟨86, _⟩ => ⟨S50000x2, .f32⟩
  | .hbm, ⟨87, _⟩ => ⟨S1x2, .f32⟩
  | .hbm, ⟨88, _⟩ => ⟨S50000x2, .f32⟩
  | .hbm, ⟨89, _⟩ => ⟨S50000x2, .f32⟩
  | .hbm, ⟨90, _⟩ => ⟨S_, .f32⟩
  | .hbm, ⟨91, _⟩ => ⟨S50000x2, .f32⟩
  | .hbm, ⟨92, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x32_S50000x32_1_0_0_1_n_n_wf : DotDims.WF S50000x64 S64x32 S50000x32 [1] [0] [0] [1] [] []
  dot_S50000x32_S32x2_S50000x2_1_0_0_1_n_n_wf : DotDims.WF S50000x32 S32x2 S50000x2 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x2_S50000x2_1_0_0_1_n_n : DotDims S50000x32 S32x2 S50000x2 where
  lhsContracting := [1]
  rhsContracting := [0]
  lhsNonContracting := [0]
  rhsNonContracting := [1]
  lhsBatch := []
  rhsBatch := []
  wf := dot_S50000x32_S32x2_S50000x2_1_0_0_1_n_n_wf

class Facts : Prop extends Facts₀ where

variable [Facts]
-- ==== Proof.KernelRun.lean ====
/-
  The run of the whole two-layer program with its final memory NAMED.

  The program is four stretches in a row: host operations (edge lists, degrees, the first gather / scatter-add and
  the mean), the first layer's kernel over ten row blocks, host operations again (the second gather / scatter-add
  and mean over the first layer's output), and the second kernel. The generated frame follows the buffer contents
  through these stretches as a fold `W0 → W1 → W2 → W3 → W4` from the launch memory and keeps, of the final
  memory, only that the arguments are unchanged. Here the same launch is read out in full: every weakly fair
  execution terminates and EVERY buffer of the final memory that outlives a kernel holds what the fold `W4` says,
  in particular the result buffer. The arguments' unchanged contents then follow as in the frame.
-/
import proofs.«130631_j64828236366125_1_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, and in the final memory every buffer that
    is not a kernel's scratch holds the last boundary's contents `W4`. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer and the arguments read out of the final memory: the result holds the fold
    `W4` at the result buffer, each argument what it was launched with. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_fold m ρ)

end Cert.Sage.Run

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.HostIn.lean ====
/-
  The host operations before the first kernel, read back from the launch memory.

  From the edge list the program cuts the source and target rows, counts each node's incoming edges by a
  scatter-add of ones (the degree), clamps it below by one and keeps it as a column; it gathers the source nodes'
  feature rows, scatter-adds them at the targets and divides by the degree column: the neighbours' mean. The
  reference does the same operations in the same order; the one difference in spelling is the degree column, which
  the program casts from the vector and the reference broadcasts from it — the same column, entry by entry.
  Nothing here is opened: each buffer's contents on entering the first kernel is named by the reference's own stage.
-/
import proofs.«130631_j64828236366125_1_alg».proof.Proof.Gen.KernelIdeal.Frame
import proofs.«130631_j64828236366125_1_alg».proof.Proof.Gen.ReferenceIdeal.Read
import proofs.«130631_j64828236366125_1_alg».proof.Proof.LibColumn
import Idealize.ShloMosaic.Lib.StableHlo.Run

set_option maxRecDepth 16384

noncomputable section

namespace Cert.Sage.HostIn

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-- A vector cast to a column is the vector broadcast along a new unit second axis. -/
theorem column_eq {a : ℕ} {α : Type} (x : (⟨1, ![a]⟩ : Shape).Idx → α) (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x := by
  funext i
  obtain ⟨r, u, rfl⟩ : ∃ (r : Fin a) (u : Fin 1), i = ix2 r u := ⟨i 0, i 1, eq_ix2 i⟩
  refine (Cert.GraphConv.Column.shapeCast_a_a1_apply x h r u).trans
    (broadcastInDim_apply _ hb x (ix2 r u) (ix1 r) fun ax => ?_).symm
  match ax with
  | ⟨0, _⟩ =>
    show r.val = if a = 1 then 0 else r.val
    split
    · have := r.isLt; omega
    · rfl

/-- The clamped degree column of the reference's second stage, as the cast the program keeps. -/
theorem degcol (x1 : (⟨S2x1600000, .i32⟩ : BufTy).Contents (Elt Ideal)) :
    val_main_v50 (F := Ideal) x1 = shapeCast S50000x1 (val_main_v49 (F := Ideal) x1) shapeCasts_S50000_S50000x1 := by
  unfold val_main_v50; exact (column_eq _ _ _).symm

/-- The same column in the reference's first stage. -/
theorem degcol' (x1 : (⟨S2x1600000, .i32⟩ : BufTy).Contents (Elt Ideal)) :
    val_main_v20 (F := Ideal) x1 = shapeCast S50000x1 (val_main_v19 (F := Ideal) x1) shapeCasts_S50000_S50000x1 := by
  unfold val_main_v20; exact (column_eq _ _ _).symm

set_option maxHeartbeats 1000000 in
/-- On entering the first kernel the mean buffer holds the reference's first mean. -/
theorem W1_v22 (c : Dev nD) :
    W1 m ρ c (Proc.devRef .tc main_v22)
      = val_main_v22 (F := Ideal) (m ((c.tc : Thread nD τ).loc main_arg0)) (m ((c.tc : Thread nD τ).loc main_arg1)) := by
  show StableHlo.after hostOps0 (W0 m ρ c) (Proc.devRef .tc main_v22) = _
  after_results_simp
  unfold val_main_v22 val_main_v21
  rw [degcol']
  rfl

set_option maxHeartbeats 1000000 in
/-- The first bias, as a one-row matrix. -/
theorem W1_v23 (c : Dev nD) :
    W1 m ρ c (Proc.devRef .tc main_v23) = shapeCast S1x64 (m ((c.tc : Thread nD τ).loc main_arg4)) shapeCasts_S64_S1x64 := by
  show StableHlo.after hostOps0 (W0 m ρ c) (Proc.devRef .tc main_v23) = _
  after_results_simp <;> rfl

set_option maxHeartbeats 1000000 in
/-- The edges' source nodes. -/
theorem W1_v1 (c : Dev nD) :
    W1 m ρ c (Proc.devRef .tc main_v1) = val_main_v31 (F := Ideal) (m ((c.tc : Thread nD τ).loc main_arg1)) := by
  show StableHlo.after hostOps0 (W0 m ρ c) (Proc.devRef .tc main_v1) = _
  after_results_simp <;> rfl

set_option maxHeartbeats 1000000 in
/-- The edges' target nodes. -/
theorem W1_v3 (c : Dev nD) :
    W1 m ρ c (Proc.devRef .tc main_v3) = val_main_v33 (F := Ideal) (m ((c.tc : Thread nD τ).loc main_arg1)) := by
  show StableHlo.after hostOps0 (W0 m ρ c) (Proc.devRef .tc main_v3) = _
  after_results_simp <;> rfl

set_option maxHeartbeats 1000000 in
/-- The clamped degree column. -/
theorem W1_v10 (c : Dev nD) :
    W1 m ρ c (Proc.devRef .tc main_v10) = val_main_v50 (F := Ideal) (m ((c.tc : Thread nD τ).loc main_arg1)) := by
  show StableHlo.after hostOps0 (W0 m ρ c) (Proc.devRef .tc main_v10) = _
  after_results_simp
  rw [degcol]
  rfl

/-! The arguments the kernels read are still what was launched. -/
theorem W1_arg0 (c : Dev nD) : W1 m ρ c (Proc.devRef .tc main_arg0) = m ((c.tc : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c.tc : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c.tc : Thread nD τ).loc main_arg3) := by
  show StableHlo.after hostOps0 (W0 m ρ c) (Proc.devRef .tc main_arg3) = _
  after_results_simp <;> rfl
theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c.tc : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c.tc : Thread nD τ).loc main_arg9) := by
  show StableHlo.after hostOps0 (W0 m ρ c) (Proc.devRef .tc main_arg9) = _
  after_results_simp <;> rfl

end Cert.Sage.HostIn

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Layer.lean ====
/-
  The dense half of a mean-aggregation graph layer, entry by entry over the extended reals.

  `layer A X Wl Wr b` at row `r`, column `q` is  max( Σ_j A[r,j]·Wl[j,q] + Σ_j X[r,j]·Wr[j,q] + b[q], 0 ):
  the neighbours' mean `A` through the left weights plus the node's own features `X` through the right weights,
  the bias, and the rectifier.  `head H W b` is the last linear map with its rectifier,
  max( Σ_j H[r,j]·W[j,q] + b[q], 0 ).  Row `r` of either depends on row `r` of the row-indexed operands only,
  which is what lets a row block of the result be computed from the same row block of the operands.
-/
import Idealize.ShloMosaic.Lib.ValueIdx
import Idealize.ShloMosaic.PureOps.Ideal.Laws

noncomputable section

namespace Cert.Sage

open Idealize.ShloMosaic Idealize.ShloMosaic.ValueIdx

/-- The f32 zero the rectifier compares with. -/
abbrev zf : EReal := Ideal.ofBits .f32 0x00000000#32

/-- One layer's dense part at entry `(r, q)`. -/
def layer {n k h : ℕ} (A X : (⟨2, ![n, k]⟩ : Shape).Idx → EReal) (Wl Wr : (⟨2, ![k, h]⟩ : Shape).Idx → EReal)
    (b : Fin h → EReal) (r : Fin n) (q : Fin h) : EReal :=
  max ((∑ j : Fin k, A (ix2 r j) * Wl (ix2 j q)) + (∑ j : Fin k, X (ix2 r j) * Wr (ix2 j q)) + b q) zf

/-- The classifier at entry `(r, q)`, over the hidden rows `H`. -/
def head {n k h : ℕ} (H : Fin n → Fin k → EReal) (W : (⟨2, ![k, h]⟩ : Shape).Idx → EReal) (b : Fin h → EReal)
    (r : Fin n) (q : Fin h) : EReal :=
  max ((∑ j : Fin k, H r j * W (ix2 j q)) + b q) zf

/-- Row `r` of a layer read from other arrays that agree with it on that row (and on the weights' column). -/
theorem layer_congr {n n' k h : ℕ} {A X : (⟨2, ![n, k]⟩ : Shape).Idx → EReal} {A' X' : (⟨2, ![n', k]⟩ : Shape).Idx → EReal}
    {Wl Wr Wl' Wr' : (⟨2, ![k, h]⟩ : Shape).Idx → EReal} {b b' : Fin h → EReal} {r : Fin n} {r' : Fin n'} {q : Fin h}
    (hA : ∀ j, A (ix2 r j) = A' (ix2 r' j)) (hX : ∀ j, X (ix2 r j) = X' (ix2 r' j))
    (hWl : ∀ j, Wl (ix2 j q) = Wl' (ix2 j q)) (hWr : ∀ j, Wr (ix2 j q) = Wr' (ix2 j q)) (hb : b q = b' q) :
    layer A X Wl Wr b r q = layer A' X' Wl' Wr' b' r' q := by
  unfold layer
  have e1 : (∑ j : Fin k, A (ix2 r j) * Wl (ix2 j q)) = ∑ j : Fin k, A' (ix2 r' j) * Wl' (ix2 j q) :=
    Finset.sum_congr rfl fun j _ => by rw [hA j, hWl j]
  have e2 : (∑ j : Fin k, X (ix2 r j) * Wr (ix2 j q)) = ∑ j : Fin k, X' (ix2 r' j) * Wr' (ix2 j q) :=
    Finset.sum_congr rfl fun j _ => by rw [hX j, hWr j]
  rw [e1, e2, hb]

/-- The classifier over hidden rows that agree on row `r`. -/
theorem head_congr {n n' k h : ℕ} {H : Fin n → Fin k → EReal} {H' : Fin n' → Fin k → EReal}
    {W W' : (⟨2, ![k, h]⟩ : Shape).Idx → EReal} {b b' : Fin h → EReal} {r : Fin n} {r' : Fin n'} {q : Fin h}
    (hH : ∀ j, H r j = H' r' j) (hW : ∀ j, W (ix2 j q) = W' (ix2 j q)) (hb : b q = b' q) :
    head H W b r q = head H' W' b' r' q := by
  unfold head
  have e1 : (∑ j : Fin k, H r j * W (ix2 j q)) = ∑ j : Fin k, H' r' j * W' (ix2 j q) :=
    Finset.sum_congr rfl fun j _ => by rw [hH j, hW j]
  rw [e1, hb]

end Cert.Sage

end
-- ==== Proof.Payload.lean ====
/-
  What each kernel body stores, entry by entry over the extended reals.

  The first body stores, at row p and column q of its block, the layer's dense part of ITS OWN row p of the
  two row-blocked operands: the roundings to bf16 on the way into the products are the identity on the
  extended reals, each product into a zero accumulator is the plain sum, the bias row is broadcast down the rows.
  The second body does the same for the second layer and then feeds the rectified hidden row through the
  classifier's product, bias and rectifier.
-/
import proofs.«130631_j64828236366125_1_alg».proof.Proof.Gen.KernelIdeal.Skeleton
import proofs.«130631_j64828236366125_1_alg».proof.Proof.LibPlainDot
import proofs.«130631_j64828236366125_1_alg».proof.Proof.Layer
import Idealize.ShloMosaic.Lib.Pipeline.Value
import Idealize.ShloMosaic.Lib.ValueLayout

noncomputable section

namespace Cert.Sage

open Cert.KernelIdeal Cert.KernelIdeal.Gen Idealize.ShloMosaic Idealize.ShloMosaic.ValueIdx

/-- The first body's stored value at `(p, q)`. -/
theorem pay0_apply (x0 x1 : Vec Ideal S5000x128 .f32) (x2 x3 : Vec Ideal S128x64 .f32) (x4 : Vec Ideal S1x64 .f32)
    (p : Fin 5000) (q : Fin 64) :
    k0_pay1 x0 x1 x2 x3 x4 (ix2 p q) = layer x0 x1 x2 x3 (fun j => x4 (ix2 (0 : Fin 1) j)) p q := by
  unfold k0_pay1 layer
  dsimp only
  refine congrArg₂ max (congrArg₂ (· + ·) (congrArg₂ (· + ·) ?_ ?_) ?_) rfl
  · refine (PlainDot.matmul_zero_apply _ rfl none _ _ p q).trans (Finset.sum_congr rfl fun k _ => ?_)
    show shapeCast S5000x128 x0 _ (ix2 p k) * x2 (ix2 k q) = _
    rw [shapeCast_self]
  · exact PlainDot.matmul_zero_apply _ rfl none _ _ p q
  · refine (broadcastTo_1b_ab_apply _ _ p q).trans ?_
    rw [shapeCast_self]

/-- The second body's stored value at `(p, q)`: the classifier over the second layer's row `p`. -/
theorem pay1_apply (x0 x1 : Vec Ideal S5000x64 .f32) (x2 x3 : Vec Ideal S64x32 .f32) (x4 : Vec Ideal S1x32 .f32)
    (x5 : Vec Ideal S32x2 .f32) (x6 : Vec Ideal S1x2 .f32) (p : Fin 5000) (q : Fin 2) :
    k1_pay1 x0 x1 x2 x3 x4 x5 x6 (ix2 p q)
      = head (layer x0 x1 x2 x3 (fun j => x4 (ix2 (0 : Fin 1) j))) x5 (fun j => x6 (ix2 (0 : Fin 1) j)) p q := by
  unfold k1_pay1 head
  dsimp only
  refine congrArg₂ max (congrArg₂ (· + ·) ?_ ?_) rfl
  · refine (PlainDot.matmul_zero_apply _ rfl none _ _ p q).trans (Finset.sum_congr rfl fun j _ => ?_)
    refine congrArg (· * x5 (ix2 j q)) ?_
    unfold layer
    refine congrArg₂ max (congrArg₂ (· + ·) (congrArg₂ (· + ·) ?_ ?_) ?_) rfl
    · refine (PlainDot.matmul_zero_apply _ rfl none _ _ p j).trans (Finset.sum_congr rfl fun k _ => ?_)
      show shapeCast S5000x64 x0 _ (ix2 p k) * x2 (ix2 k j) = _
      rw [shapeCast_self]
    · refine (PlainDot.matmul_zero_apply _ rfl none _ _ p j).trans (Finset.sum_congr rfl fun k _ => ?_)
      show shapeCast S5000x64 x1 _ (ix2 p k) * x3 (ix2 k j) = _
      rw [shapeCast_self]
    · refine (broadcastTo_1b_ab_apply _ _ p j).trans ?_
      rw [shapeCast_self]
  · refine (broadcastTo_1b_ab_apply _ _ p q).trans ?_
    rw [shapeCast_self]

end Cert.Sage

end
-- ==== Proof.Region0.lean ====
/-
  The first layer's kernel as ONE function of the arrays it is entered with.

  The kernel walks ten row blocks of 5000 rows. At block t it reads rows 5000·t … 5000·t + 4999 of the neighbours'
  mean and of the node features, the two weight matrices and the bias row whole, and writes rows
  5000·t … 5000·t + 4999 of its output: at row p of the block and column q, the layer's dense part of row
  5000·t + p. A row of the layer depends on the same row of the row-indexed operands only, so what block t writes
  back IS block t of the layer taken over the whole arrays; the ten blocks tile the 50000 rows, so after the last
  write-back the output array is the layer of the whole arrays.
-/
import proofs.«130631_j64828236366125_1_alg».proof.Proof.Gen.KernelIdeal.Frame
import proofs.«130631_j64828236366125_1_alg».proof.Proof.Payload
import Idealize.ShloMosaic.Lib.Pipeline.Value

set_option maxRecDepth 16384

noncomputable section

namespace Cert.Sage.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first layer over whole arrays: mean `A`, features `X`, weights `Wl`, `Wr`, the bias as a one-row matrix. -/
def G (A X : S50000x128.Idx → EReal) (Wl Wr : S128x64.Idx → EReal) (b : S1x64.Idx → EReal) : S50000x64.Idx → EReal :=
  fun i => layer A X Wl Wr (fun j => b (ix2 (0 : Fin 1) j)) (i 0) (i 1)

/-- The printed index maps over the ten points: the two row-blocked inputs move with the output's row block, the
    weights and the bias stay at block (0, 0), and the output's row-block index is at most 9. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of the layer over the arrays the region is entered with. -/
theorem flushed_eq (c : Dev nD) (t : Fin cfg0.N) :
    (dat0 V c).flushed 5 t = ((cfg0.win 5).blk t).view.read (Elt Ideal)
      (G (V c main_v22) (V c main_arg0) (V c main_arg2) (V c main_arg3) (V c main_v23)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  have hp : p.val < 5000 := p.isLt
  have he : ((cfg0.win 5).blk t).view.emb (ix2 p q)
      = ix2 (⟨win0_5.index t (0 : Fin 2) * 5000 + p.val, by omega⟩ : Fin 50000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 64 + 1 * q.val = q.val; omega
  show k0_pay1 (iblk0 V c 0 t) (iblk0 V c 1 t) (iblk0 V c 2 t) (iblk0 V c 3 t) (iblk0 V c 4 t) (ix2 p q)
    = G (V c main_v22) (V c main_arg0) (V c main_arg2) (V c main_arg3) (V c main_v23) (((cfg0.win 5).blk t).view.emb (ix2 p q))
  rw [he]
  refine (pay0_apply (iblk0 V c 0 t) (iblk0 V c 1 t) (iblk0 V c 2 t) (iblk0 V c 3 t) (iblk0 V c 4 t) p q).trans ?_
  show _ = layer (V c main_v22) (V c main_arg0) (V c main_arg2) (V c main_arg3) (fun j => V c main_v23 (ix2 (0 : Fin 1) j))
    (⟨win0_5.index t (0 : Fin 2) * 5000 + p.val, by omega⟩ : Fin 50000) q
  refine layer_congr ?_ ?_ ?_ ?_ ?_
  · intro k
    show V c main_v22 (((cfg0.win 0).blk t).view.emb (ix2 p k)) = _
    refine congrArg (V c main_v22) ?_
    funext a; apply Fin.ext
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  · intro k
    show V c main_arg0 (((cfg0.win 1).blk t).view.emb (ix2 p k)) = _
    refine congrArg (V c main_arg0) ?_
    funext a; apply Fin.ext
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  · intro k
    show V c main_arg2 (((cfg0.win 2).blk t).view.emb (ix2 k q)) = _
    refine congrArg (V c main_arg2) ?_
    funext a; apply Fin.ext
    match a with
    | ⟨0, _⟩ => show win0_2.index t (0 : Fin 2) * 128 + 1 * k.val = k.val; omega
    | ⟨1, _⟩ => show win0_2.index t (1 : Fin 2) * 64 + 1 * q.val = q.val; omega
  · intro k
    show V c main_arg3 (((cfg0.win 3).blk t).view.emb (ix2 k q)) = _
    refine congrArg (V c main_arg3) ?_
    funext a; apply Fin.ext
    match a with
    | ⟨0, _⟩ => show win0_3.index t (0 : Fin 2) * 128 + 1 * k.val = k.val; omega
    | ⟨1, _⟩ => show win0_3.index t (1 : Fin 2) * 64 + 1 * q.val = q.val; omega
  · show V c main_v23 (((cfg0.win 4).blk t).view.emb (ix2 (0 : Fin 1) q)) = _
    refine congrArg (V c main_v23) ?_
    funext a; apply Fin.ext
    match a with
    | ⟨0, _⟩ => show win0_4.index t (0 : Fin 2) * 1 + 1 * 0 = 0; omega
    | ⟨1, _⟩ => show win0_4.index t (1 : Fin 2) * 64 + 1 * q.val = q.val; omega

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- Row `r` of the output lies in the block of the point whose row-block index is `r / 5000`. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the region the first layer's output array is the layer of the arrays the region was entered with. -/
theorem final (c : Dev nD) :
    (dat0 V c).arrAt 5 cfg0.N = G (V c main_v22) (V c main_arg0) (V c main_arg2) (V c main_arg3) (V c main_v23) :=
  (dat0 V c).arrAt_eq_of_cover 5 _ (fun t _ => flushed_eq V c t) cover

end Cert.Sage.Region0

end
-- ==== Proof.Region1.lean ====
/-
  The second kernel — the second layer and the classifier fused — as ONE function of the arrays it is entered with.

  Again ten row blocks of 5000 rows. At block t the kernel reads rows 5000·t … 5000·t + 4999 of the second mean and
  of the first layer's output, and the second layer's weights and bias, the classifier's weights and bias whole; at row
  p of the block and column q it writes the classifier of the second layer's row 5000·t + p. That row depends on the
  same row of the two row-indexed operands only, so block t's write-back is block t of the whole-array function, and the
  ten blocks tile the 50000 rows.
-/
import proofs.«130631_j64828236366125_1_alg».proof.Proof.Gen.KernelIdeal.Frame
import proofs.«130631_j64828236366125_1_alg».proof.Proof.Payload
import Idealize.ShloMosaic.Lib.Pipeline.Value

set_option maxRecDepth 16384

noncomputable section

namespace Cert.Sage.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The second layer and the classifier over whole arrays: mean `A`, the first layer's output `X`, the layer's
    weights and one-row bias, the classifier's weights and one-row bias. -/
def G (A X : S50000x64.Idx → EReal) (Wl Wr : S64x32.Idx → EReal) (b : S1x32.Idx → EReal) (W : S32x2.Idx → EReal)
    (b' : S1x2.Idx → EReal) : S50000x2.Idx → EReal :=
  fun i => head (layer A X Wl Wr (fun j => b (ix2 (0 : Fin 1) j))) W (fun j => b' (ix2 (0 : Fin 1) j)) (i 0) (i 1)

/-- The printed index maps over the ten points: the two row-blocked inputs move with the output's row block, every
    other input stays at block (0, 0), and the output's row-block index is at most 9. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 9 ∧ win1_7.index t (1 : Fin 2) = 0 :=
  (by decide +kernel : ∀ t : Fin grid1.N, _)

/-- Every row block is some point's. -/
theorem idx_onto : ∀ q0 : Fin 10, ∃ t : Fin cfg1.N, win1_7.index t = ![q0.val, 0] :=
  (by decide +kernel : ∀ q0 : Fin 10, ∃ t : Fin grid1.N, win1_7.index t = ![q0.val, 0])

/-- What point `t` writes back is block `t` of the whole-array function over the arrays the region is entered with. -/
theorem flushed_eq (c : Dev nD) (t : Fin cfg1.N) :
    (dat1 V c).flushed 7 t = ((cfg1.win 7).blk t).view.read (Elt Ideal)
      (G (V c main_v36) (V c main_v24) (V c main_arg5) (V c main_arg6) (V c main_v37) (V c main_arg8) (V c main_v38)) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x32) hz, View.ld_unit_zero (S := S1x32) hz,
    View.ld_unit_zero (S := S32x2) hz, View.ld_unit_zero (S := S1x2) hz]
  obtain ⟨e00, e01, e10, e11, e20, e21, e30, e31, e40, e41, e50, e51, e60, e61, e70, e71⟩ := idx_facts t
  funext j
  obtain ⟨p, q, rfl⟩ : ∃ (p : Fin 5000) (q : Fin 2), j = ix2 p q := ⟨j 0, j 1, eq_ix2 j⟩
  have hp : p.val < 5000 := p.isLt
  have he : ((cfg1.win 7).blk t).view.emb (ix2 p q)
      = ix2 (⟨win1_7.index t (0 : Fin 2) * 5000 + p.val, by omega⟩ : Fin 50000) q := by
    funext a; apply Fin.ext
    match a with
    | ⟨0, _⟩ => show win1_7.index t (0 : Fin 2) * 5000 + 1 * p.val = win1_7.index t (0 : Fin 2) * 5000 + p.val; omega
    | ⟨1, _⟩ => show win1_7.index t (1 : Fin 2) * 2 + 1 * q.val = q.val; omega
  show k1_pay1 (iblk1 V c 0 t) (iblk1 V c 1 t) (iblk1 V c 2 t) (iblk1 V c 3 t) (iblk1 V c 4 t) (iblk1 V c 5 t) (iblk1 V c 6 t) (ix2 p q)
    = G (V c main_v36) (V c main_v24) (V c main_arg5) (V c main_arg6) (V c main_v37) (V c main_arg8) (V c main_v38)
        (((cfg1.win 7).blk t).view.emb (ix2 p q))
  rw [he]
  refine (pay1_apply (iblk1 V c 0 t) (iblk1 V c 1 t) (iblk1 V c 2 t) (iblk1 V c 3 t) (iblk1 V c 4 t) (iblk1 V c 5 t) (iblk1 V c 6 t) p q).trans ?_
  show _ = head (layer (V c main_v36) (V c main_v24) (V c main_arg5) (V c main_arg6) (fun j => V c main_v37 (ix2 (0 : Fin 1) j)))
    (V c main_arg8) (fun j => V c main_v38 (ix2 (0 : Fin 1) j))
    (⟨win1_7.index t (0 : Fin 2) * 5000 + p.val, by omega⟩ : Fin 50000) q
  refine head_congr (fun j => layer_congr ?_ ?_ ?_ ?_ ?_) ?_ ?_
  · intro k
    show V c main_v36 (((cfg1.win 0).blk t).view.emb (ix2 p k)) = _
    refine congrArg (V c main_v36) ?_
    funext a; apply Fin.ext
    match a with
    | ⟨0, _⟩ => show win1_0.index t (0 : Fin 2) * 5000 + 1 * p.val = win1_7.index t (0 : Fin 2) * 5000 + p.val; omega
    | ⟨1, _⟩ => show win1_0.index t (1 : Fin 2) * 64 + 1 * k.val = k.val; omega
  · intro k
    show V c main_v24 (((cfg1.win 1).blk t).view.emb (ix2 p k)) = _
    refine congrArg (V c main_v24) ?_
    funext a; apply Fin.ext
    match a with
    | ⟨0, _⟩ => show win1_1.index t (0 : Fin 2) * 5000 + 1 * p.val = win1_7.index t (0 : Fin 2) * 5000 + p.val; omega
    | ⟨1, _⟩ => show win1_1.index t (1 : Fin 2) * 64 + 1 * k.val = k.val; omega
  · intro k
    show V c main_arg5 (((cfg1.win 2).blk t).view.emb (ix2 k j)) = _
    refine congrArg (V c main_arg5) ?_
    funext a; apply Fin.ext
    match a with
    | ⟨0, _⟩ => show win1_2.index t (0 : Fin 2) * 64 + 1 * k.val = k.val; omega
    | ⟨1, _⟩ => show win1_2.index t (1 : Fin 2) * 32 + 1 * j.val = j.val; omega
  · intro k
    show V c main_arg6 (((cfg1.win 3).blk t).view.emb (ix2 k j)) = _
    refine congrArg (V c main_arg6) ?_
    funext a; apply Fin.ext
    match a with
    | ⟨0, _⟩ => show win1_3.index t (0 : Fin 2) * 64 + 1 * k.val = k.val; omega
    | ⟨1, _⟩ => show win1_3.index t (1 : Fin 2) * 32 + 1 * j.val = j.val; omega
  ·
    show V c main_v37 (((cfg1.win 4).blk t).view.emb (ix2 (0 : Fin 1) j)) = _
    refine congrArg (V c main_v37) ?_
    funext a; apply Fin.ext
    match a with
    | ⟨0, _⟩ => show win1_4.index t (0 : Fin 2) * 1 + 1 * 0 = 0; omega
    | ⟨1, _⟩ => show win1_4.index t (1 : Fin 2) * 32 + 1 * j.val = j.val; omega
  · intro k
    show V c main_arg8 (((cfg1.win 5).blk t).view.emb (ix2 k q)) = _
    refine congrArg (V c main_arg8) ?_
    funext a; apply Fin.ext
    match a with
    | ⟨0, _⟩ => show win1_5.index t (0 : Fin 2) * 32 + 1 * k.val = k.val; omega
    | ⟨1, _⟩ => show win1_5.index t (1 : Fin 2) * 2 + 1 * q.val = q.val; omega
  ·
    show V c main_v38 (((cfg1.win 6).blk t).view.emb (ix2 (0 : Fin 1) q)) = _
    refine congrArg (V c main_v38) ?_
    funext a; apply Fin.ext
    match a with
    | ⟨0, _⟩ => show win1_6.index t (0 : Fin 2) * 1 + 1 * 0 = 0; omega
    | ⟨1, _⟩ => show win1_6.index t (1 : Fin 2) * 2 + 1 * q.val = q.val; omega

/-- An index of the output array is in point `t`'s block iff each coordinate is in the block's range on its axis. -/
theorem mem_blk (t : Fin cfg1.N) (i : S50000x2.Idx) :
    i ∈ ((cfg1.win 7).blk t).view.set ↔ ∀ a : Fin 2, win1_7.index t a * S5000x2.size a ≤ (i a).val
      ∧ (i a).val < win1_7.index t a * S5000x2.size a + S5000x2.size a := by
  show i ∈ ((View.whole main_v39).slice (win1_7.rect t)).set ↔ _
  rw [View.set_slice_whole, Rect.mem_set_unit]
  exact Iff.rfl

/-- Row `r` of the output lies in the block of the point whose row-block index is `r / 5000`. -/
theorem cover (i : S50000x2.Idx) :
    ∃ t : Fin cfg1.N, (cfg1.win 7).flush t = true ∧ i ∈ ((cfg1.win 7).blk t).view.set := by
  have hi0 : (i 0).val < 50000 := (i 0).isLt
  have hi1 : (i 1).val < 2 := (i 1).isLt
  obtain ⟨t, ht⟩ := idx_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 2 ≤ (i 1).val ∧ (i 1).val < win1_7.index t (1 : Fin 2) * 2 + 2; omega

/-- After the region the result array is the whole-array function of the arrays the region was entered with. -/
theorem final (c : Dev nD) :
    (dat1 V c).arrAt 7 cfg1.N
      = G (V c main_v36) (V c main_v24) (V c main_arg5) (V c main_arg6) (V c main_v37) (V c main_arg8) (V c main_v38) :=
  (dat1 V c).arrAt_eq_of_cover 7 _ (fun t _ => flushed_eq V c t) cover

end Cert.Sage.Region1

end
-- ==== Proof.HostDense.lean ====
/-
  The reference's dense operations as the same whole-array functions the kernels compute.

  After each aggregation the reference applies, on whole arrays, two dot_generals, an add, the bias broadcast
  down the rows, an add and the rectifier (and, at the end, one more dot_general, bias and rectifier). Read at an
  entry (r, q) over the extended reals each dot_general is the plain sum over the contracted axis, the bias is the
  vector's entry q, the rectifier's zero is the f32 zero: entry by entry this is the layer (resp. the classifier over
  the layer) that the kernels' row blocks assemble. The kernels take the bias as a one-row matrix cast from the
  vector; the reference broadcasts the vector; both read the vector's entry q.
-/
import proofs.«130631_j64828236366125_1_alg».proof.Proof.Gen.ReferenceIdeal.Read
import proofs.«130631_j64828236366125_1_alg».proof.Proof.Region0
import proofs.«130631_j64828236366125_1_alg».proof.Proof.Region1
import proofs.«130631_j64828236366125_1_alg».proof.Proof.LibPlainDot
import Idealize.ShloMosaic.Lib.ValueLayout

noncomputable section

namespace Cert.Sage.HostDense

open Cert.ReferenceIdeal Cert.ReferenceIdeal.Gen Idealize.ShloMosaic Idealize.ShloMosaic.ValueIdx

/-- A bias vector broadcast to one row and then down `n` rows reads its entry `q` at `(r, q)`. -/
theorem bias_apply {n h : ℕ} (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (r : Fin n) (q : Fin h) :
    broadcastInDim ⟨2, ![n, h]⟩ ![0, 1] h2 (broadcastInDim ⟨2, ![1, h]⟩ ![1] h1 b) (ix2 r q) = b (ix1 q) := by
  refine (broadcastInDim_apply _ h2 _ (ix2 r q) (ix2 (0 : Fin 1) q) fun a => ?_).trans
    (broadcastInDim_apply _ h1 b (ix2 (0 : Fin 1) q) (ix1 q) fun a => ?_)
  · match a with
    | ⟨0, _⟩ => show 0 = if (1 : ℕ) = 1 then 0 else r.val; rw [if_pos rfl]
    | ⟨1, _⟩ =>
      show q.val = if h = 1 then 0 else q.val
      split
      · have := q.isLt; omega
      · rfl
  · match a with
    | ⟨0, _⟩ =>
      show q.val = if h = 1 then 0 else q.val
      split
      · have := q.isLt; omega
      · rfl

/-- The rectifier's zero splat reads the f32 zero everywhere. -/
theorem zero_apply {s : Shape} (h0 : S_.BroadcastsInDim s ![]) (i : s.Idx) :
    broadcastInDim s ![] h0 (constant (F := Ideal) S_ .f32 0x00000000#32) i = zf :=
  broadcastInDim_apply _ h0 _ i ix0 fun a => a.elim0

/-- The reference's first dense stage is the first layer over whole arrays. -/
theorem dense0 (A X : FVec Ideal S50000x128 .f32) (Wl Wr : FVec Ideal S128x64 .f32) (b : FVec Ideal S64 .f32)
    (hc : S64.ShapeCasts S1x64) :
    maximumf (addf (addf (Host.dotGeneral dot_S50000x128_S128x64_S50000x64_1_0_0_1_n_n none A Wl)
          (Host.dotGeneral dot_S50000x128_S128x64_S50000x64_1_0_0_1_n_n none X Wr))
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32))
    = Region0.G A X Wl Wr (shapeCast S1x64 b hc) := by
  funext i
  obtain ⟨r, q, rfl⟩ : ∃ (r : Fin 50000) (q : Fin 64), i = ix2 r q := ⟨i 0, i 1, eq_ix2 i⟩
  unfold Region0.G layer
  refine congrArg₂ max (congrArg₂ (· + ·) (congrArg₂ (· + ·) ?_ ?_) ?_) ?_
  · exact PlainDot.dotGeneral_apply _ rfl none _ A Wl r q
  · exact PlainDot.dotGeneral_apply _ rfl none _ X Wr r q
  · exact (bias_apply b _ _ r q).trans (shapeCast_a_1a_apply b hc 0 q).symm
  · exact zero_apply _ _

/-- The reference's second dense stage and classifier are the second kernel's whole-array function. -/
theorem dense1 (A X : FVec Ideal S50000x64 .f32) (Wl Wr : FVec Ideal S64x32 .f32) (b : FVec Ideal S32 .f32)
    (W : FVec Ideal S32x2 .f32) (b' : FVec Ideal S2 .f32) (hc : S32.ShapeCasts S1x32) (hc' : S2.ShapeCasts S1x2) :
    maximumf (addf (Host.dotGeneral dot_S50000x32_S32x2_S50000x2_1_0_0_1_n_n none
          (maximumf (addf (addf (Host.dotGeneral dot_S50000x64_S64x32_S50000x32_1_0_0_1_n_n none A Wl)
                (Host.dotGeneral dot_S50000x64_S64x32_S50000x32_1_0_0_1_n_n none X Wr))
              (broadcastInDim S50000x32 ![0, 1] bcast_S1x32_S50000x32_0_1 (broadcastInDim S1x32 ![1] bcast_S32_S1x32_1 b)))
            (broadcastInDim S50000x32 ![] bcast_S_S50000x32 (constant (F := Ideal) S_ .f32 0x00000000#32))) W)
        (broadcastInDim S50000x2 ![0, 1] bcast_S1x2_S50000x2_0_1 (broadcastInDim S1x2 ![1] bcast_S2_S1x2_1 b')))
      (broadcastInDim S50000x2 ![] bcast_S_S50000x2 (constant (F := Ideal) S_ .f32 0x00000000#32))
    = Region1.G A X Wl Wr (shapeCast S1x32 b hc) W (shapeCast S1x2 b' hc') := by
  funext i
  obtain ⟨r, q, rfl⟩ : ∃ (r : Fin 50000) (q : Fin 2), i = ix2 r q := ⟨i 0, i 1, eq_ix2 i⟩
  unfold Region1.G head
  refine congrArg₂ max (congrArg₂ (· + ·) ?_ ?_) ?_
  · refine (PlainDot.dotGeneral_apply _ rfl none _ _ W r q).trans (Finset.sum_congr rfl fun j _ => ?_)
    refine congrArg (· * W (ix2 j q)) ?_
    unfold layer
    refine congrArg₂ max (congrArg₂ (· + ·) (congrArg₂ (· + ·) ?_ ?_) ?_) ?_
    · exact PlainDot.dotGeneral_apply _ rfl none _ A Wl r j
    · exact PlainDot.dotGeneral_apply _ rfl none _ X Wr r j
    · exact (bias_apply b _ _ r j).trans (shapeCast_a_1a_apply b hc 0 j).symm
    · exact zero_apply _ _
  · exact (bias_apply b' _ _ r q).trans (shapeCast_a_1a_apply b' hc' 0 q).symm
  · exact zero_apply _ _

end Cert.Sage.HostDense

end
-- ==== Proof.HostMid.lean ====
/-
  From the first kernel's exit to the result.

  When the first kernel has run, its output buffer holds the first layer of the arrays it was entered with, and those
  are the reference's own first mean, the features, the weights and the bias: so the buffer holds the reference's first
  hidden array. The host operations between the kernels gather and scatter-add that array along the same edges and
  divide by the same degree column — the reference's second mean —, and the second kernel, entered with that mean and
  the first hidden array, leaves in the result buffer the second layer and classifier of them: the reference's result.
-/
import proofs.«130631_j64828236366125_1_alg».proof.Proof.Gen.KernelIdeal.Frame
import proofs.«130631_j64828236366125_1_alg».proof.Proof.Gen.ReferenceIdeal.Read
import proofs.«130631_j64828236366125_1_alg».proof.Proof.HostIn
import proofs.«130631_j64828236366125_1_alg».proof.Proof.Region0
import proofs.«130631_j64828236366125_1_alg».proof.Proof.Region1
import proofs.«130631_j64828236366125_1_alg».proof.Proof.HostDense
import Idealize.ShloMosaic.Lib.StableHlo.Run

set_option maxRecDepth 16384

noncomputable section

namespace Cert.Sage.HostMid

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-- After the first kernel its output buffer holds the reference's first hidden array. -/
theorem W2_v24 (c : Dev nD) :
    W2 m ρ c (Proc.devRef .tc main_v24)
      = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((Region0.final (V1 m ρ) c).trans ?_)
  show Region0.G (W1 m ρ c (Proc.devRef .tc main_v22)) (W1 m ρ c (Proc.devRef .tc main_arg0)) (W1 m ρ c (Proc.devRef .tc main_arg2))
    (W1 m ρ c (Proc.devRef .tc main_arg3)) (W1 m ρ c (Proc.devRef .tc main_v23)) = _
  rw [HostIn.W1_v22, HostIn.W1_arg0, HostIn.W1_arg2, HostIn.W1_arg3, HostIn.W1_v23]
  unfold val_main_v29 val_main_v28 val_main_v25 val_main_v23 val_main_v24 val_main_v27 val_main_v26 val_main_call0_v0 val_main_call0_cst
  exact (HostDense.dense0 _ _ _ _ _ _).symm

set_option maxHeartbeats 1000000 in
/-- On entering the second kernel the mean buffer holds the reference's second mean. -/
theorem W3_v36 (c : Dev nD) :
    W3 m ρ c (Proc.devRef .tc main_v36)
      = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v36) = _
  after_results_simp
  rw [W2_v24 m ρ c, W2_of_ne m ρ c main_v1 (by decide), W2_of_ne m ρ c main_v3 (by decide), W2_of_ne m ρ c main_v10 (by decide),
    HostIn.W1_v1, HostIn.W1_v3, HostIn.W1_v10]
  rfl

set_option maxHeartbeats 1000000 in
/-- The first hidden array is untouched between the kernels. -/
theorem W3_v24 (c : Dev nD) :
    W3 m ρ c (Proc.devRef .tc main_v24)
      = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v24) = _
  after_results_simp
  exact W2_v24 m ρ c

set_option maxHeartbeats 1000000 in
/-- The second bias as a one-row matrix. -/
theorem W3_v37 (c : Dev nD) :
    W3 m ρ c (Proc.devRef .tc main_v37) = shapeCast S1x32 (m ((c.tc : Thread nD τ).loc main_arg7)) shapeCasts_S32_S1x32 := by
  show StableHlo.after hostOps1 (W2 m ρ c) (Proc.devRef .tc main_v37) = _
  after_results_simp
  rw [W2_of_ne m ρ c main_arg7 (by decide), HostIn.W1_arg7]
  rfl

set_option maxHeartbeats 1000000 in
/-- The classifier's bias as a one-row matrix. -/
theorem W3_v38 (c : Dev nD) :
    W3 m ρ c (Proc.devRef .tc main_v38) = shapeCast S1x2 (m ((c.tc : Thread nD τ).loc main_arg9)) shapeCasts_S2_S1x2 := by
  show StableHlo.after hostOps1 (W2 m ρ c) (Proc.devRef .tc main_v38) = _
  after_results_simp
  rw [W2_of_ne m ρ c main_arg9 (by decide), HostIn.W1_arg9]
  rfl

theorem W3_arg5 (c : Dev nD) : W3 m ρ c (Proc.devRef .tc main_arg5) = m ((c.tc : Thread nD τ).loc main_arg5) := by
  show StableHlo.after hostOps1 (W2 m ρ c) (Proc.devRef .tc main_arg5) = _
  after_results_simp
  exact (W2_of_ne m ρ c main_arg5 (by decide)).trans (HostIn.W1_arg5 m ρ c)
theorem W3_arg6 (c : Dev nD) : W3 m ρ c (Proc.devRef .tc main_arg6) = m ((c.tc : Thread nD τ).loc main_arg6) := by
  show StableHlo.after hostOps1 (W2 m ρ c) (Proc.devRef .tc main_arg6) = _
  after_results_simp
  exact (W2_of_ne m ρ c main_arg6 (by decide)).trans (HostIn.W1_arg6 m ρ c)
theorem W3_arg8 (c : Dev nD) : W3 m ρ c (Proc.devRef .tc main_arg8) = m ((c.tc : Thread nD τ).loc main_arg8) := by
  show StableHlo.after hostOps1 (W2 m ρ c) (Proc.devRef .tc main_arg8) = _
  after_results_simp
  exact (W2_of_ne m ρ c main_arg8 (by decide)).trans (HostIn.W1_arg8 m ρ c)

/-- After the second kernel the result buffer holds the reference's result, as a function of the launch memory. -/
theorem result (c : Dev nD) :
    W4 m ρ c (Proc.devRef .tc main_v39)
      = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 7).trans ((Region1.final (V3 m ρ) c).trans ?_)
  show Region1.G (W3 m ρ c (Proc.devRef .tc main_v36)) (W3 m ρ c (Proc.devRef .tc main_v24)) (W3 m ρ c (Proc.devRef .tc main_arg5))
    (W3 m ρ c (Proc.devRef .tc main_arg6)) (W3 m ρ c (Proc.devRef .tc main_v37)) (W3 m ρ c (Proc.devRef .tc main_arg8))
    (W3 m ρ c (Proc.devRef .tc main_v38)) = _
  rw [W3_v36, W3_v24, W3_arg5, W3_arg6, W3_v37, W3_arg8, W3_v38]
  unfold val_main_v64 val_main_v63 val_main_v60 val_main_v62 val_main_v61 val_main_call2_v0 val_main_call2_cst val_main_v59
    val_main_v58 val_main_v55 val_main_v53 val_main_v54 val_main_v57 val_main_v56 val_main_call1_v0 val_main_call1_cst
  exact (HostDense.dense1 _ _ _ _ _ _ _ _ _).symm

end Cert.Sage.HostMid

end
-- ==== Proof.lean ====
/-
  A two-layer mean-aggregation graph network with a linear classifier: the kernel program against its jnp reference.

  Both programs compute, for every node r,
      h1[r] = relu( mean1[r]·W1l + x[r]·W1r + b1 ),   h2[r] = relu( mean2[r]·W2l + h1[r]·W2r + b2 ),
      out[r] = relu( h2[r]·W3 + b3 ),
  where mean1 is the mean of the features x over the edges into r (gather, scatter-add, division by the clamped
  in-degree) and mean2 the same mean of h1. The kernel program does the aggregations on the host exactly as the
  reference does and the dense parts in two kernels over ten blocks of 5000 rows: the first computes h1, the second
  h2 and out fused. Over the extended reals a rounding to bf16 is the identity and a product accumulated into zero is
  the plain sum, and a row of a dense part depends on the same row of its row-indexed operands only, so each kernel's
  blocks assemble the whole-array layer (Region0, Region1); the reference's dot_generals, bias broadcasts and
  rectifiers are the same layer entry by entry (HostDense); and the aggregations are the same host operations on
  both sides, carried unopened (HostIn, HostMid). No algebraic law beyond these readings is needed, so the
  precondition that the inputs are finite is never opened.

  The three frames: the two kernel programs' are the generated ones; the reference's is its generated run with the
  result dropped. The idealization rewrote nothing, so `preserves` is trivial.
-/
import proofs.«130631_j64828236366125_1_alg».proof.Defs
import proofs.«130631_j64828236366125_1_alg».proof.Proof.Gen.Kernel
import proofs.«130631_j64828236366125_1_alg».proof.Proof.Gen.Kernel.Skeleton
import proofs.«130631_j64828236366125_1_alg».proof.Proof.Gen.Kernel.Launch
import proofs.«130631_j64828236366125_1_alg».proof.Proof.Gen.Kernel.Points
import proofs.«130631_j64828236366125_1_alg».proof.Proof.Gen.Kernel.Frame
import proofs.«130631_j64828236366125_1_alg».proof.Proof.Gen.KernelIdeal
import proofs.«130631_j64828236366125_1_alg».proof.Proof.Gen.KernelIdeal.Skeleton
import proofs.«130631_j64828236366125_1_alg».proof.Proof.Gen.KernelIdeal.Launch
import proofs.«130631_j64828236366125_1_alg».proof.Proof.Gen.KernelIdeal.Points
import proofs.«130631_j64828236366125_1_alg».proof.Proof.Gen.KernelIdeal.Frame
import proofs.«130631_j64828236366125_1_alg».proof.Proof.Gen.ReferenceIdeal
import proofs.«130631_j64828236366125_1_alg».proof.Proof.Gen.Pre_finite_inputs
import proofs.«130631_j64828236366125_1_alg».proof.Proof.Gen.ReferenceIdeal.Run
import proofs.«130631_j64828236366125_1_alg».proof.Proof.Gen.ReferenceIdeal.Read
import proofs.«130631_j64828236366125_1_alg».proof.Proof.KernelRun
import proofs.«130631_j64828236366125_1_alg».proof.Proof.HostMid
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the reference's last stage of the (agreeing) arguments. -/
theorem algebraic : Cert.algebraic_KernelIdeal_ReferenceIdeal := by
  intro m ρ m' ρ' _ hagree
  refine ⟨fun c => Cert.ReferenceIdeal.Read.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.Sage.HostMid.result m ρ c), (h c).2⟩)
      (Cert.Sage.Run.run_named m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v64_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
